-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S1x256 : Shape := ⟨2, ![1, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg6 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256x256 .f32) (main_arg6 : FVec F S1x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x256 : Shape := ⟨2, ![256, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S1000x256 : Shape := ⟨2, ![1000, 256]⟩

abbrev nBuf : Space → Nat
  | .hbm => 24
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  broadcasts_S1x256_S1000x256 : S1x256.Broadcasts S1000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v12) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .i1⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Layer.lean ====
/-
  The dense graph layer that both programs compute, as ONE function of five arrays, index by index, on the
  extended reals.

  Write `a` for the aggregated neighbour features (one row of 256 numbers per node), `x` for the nodes' own
  features, `W1`, `W2` for the two 256 × 256 weight matrices and `b` for the bias row. For node `r` and output
  column `q` the pre-activation is

      s r q = Σₖ (a r k + x r k) · W1 k q  +  Σₖ (a r k · x r k) · W2 k q  +  b 0 q

  and the layer's value is the leaky rectifier of it: `s` itself where `s ≥ 0`, and `c · s` elsewhere, `c` the
  binary32 number nearest to 0.2. Both the comparison and the constant are kept as the operations the two
  programs apply, unevaluated: the same word on both sides is never opened.

  The function is stated for an array of ANY number of rows `R`, because row `r` of the result reads row `r` of
  `a` and `x` and nothing else of them: a tile of rows of the result is the layer of the same tile of rows of the
  inputs (`layer_rows`). That is all the tiling of the node axis needs.
-/
import Idealize.ShloMosaic.PureOps.Ideal
import Idealize.ShloMosaic.Lib.ValueIdx

noncomputable section

open scoped BigOperators

namespace Cert.GraphLayer

open Idealize.ShloMosaic Idealize.ShloMosaic.ValueIdx

/-- An array of `R` rows of 256 features. -/
abbrev Rows (R : ℕ) : Shape := ⟨2, ![R, 256]⟩
/-- A 256 × 256 weight matrix. -/
abbrev Weights : Shape := ⟨2, ![256, 256]⟩
/-- The bias, one row of 256 numbers. -/
abbrev BiasRow : Shape := ⟨2, ![1, 256]⟩

/-- The pre-activation of node `r` at output column `q`: the sum `a + x` through `W1`, plus the product `a · x`
    through `W2`, plus the bias. -/
def preAct {R : ℕ} (a x : (Rows R).Idx → EReal) (W1 W2 : Weights.Idx → EReal) (b : BiasRow.Idx → EReal)
    (r : Fin R) (q : Fin 256) : EReal :=
  (∑ k : Fin 256, (a (ix2 r k) + x (ix2 r k)) * W1 (ix2 k q))
    + (∑ k : Fin 256, (a (ix2 r k) * x (ix2 r k)) * W2 (ix2 k q))
    + b (ix2 (0 : Fin 1) q)

/-- The leaky rectifier: `s` where `s ≥ 0`, else the constant `0x3E4CCCCD` (binary32 for 0.2) times `s`. -/
def leaky (s : EReal) : EReal :=
  Scalar.select (Ideal.cmp .oge s (Ideal.ofBits .f32 0x00000000#32)) s (Ideal.ofBits .f32 0x3E4CCCCD#32 * s)

/-- The layer: the leaky rectifier of the pre-activation, at every node and output column. -/
def layer {R : ℕ} (a x : (Rows R).Idx → EReal) (W1 W2 : Weights.Idx → EReal) (b : BiasRow.Idx → EReal) :
    (Rows R).Idx → EReal :=
  fun i => leaky (preAct a x W1 W2 b (i 0) (i 1))

/-- The layer at `(r, q)` spelt out. -/
theorem layer_ix2 {R : ℕ} (a x : (Rows R).Idx → EReal) (W1 W2 : Weights.Idx → EReal) (b : BiasRow.Idx → EReal)
    (r : Fin R) (q : Fin 256) : layer a x W1 W2 b (ix2 r q) = leaky (preAct a x W1 W2 b r q) := rfl

/-- ROW LOCALITY. Row `r'` of the layer of `(a', x')` is row `r` of the layer of `(a, x)` as soon as row `r'` of
    `a'` is row `r` of `a` and likewise for `x`: the weights and the bias are shared, and the sums over `k` read one
    row of each array. -/
theorem layer_rows {R R' : ℕ} (a x : (Rows R).Idx → EReal) (a' x' : (Rows R').Idx → EReal)
    (W1 W2 : Weights.Idx → EReal) (b : BiasRow.Idx → EReal) (r : Fin R) (r' : Fin R') (q : Fin 256)
    (ha : ∀ k : Fin 256, a' (ix2 r' k) = a (ix2 r k)) (hx : ∀ k : Fin 256, x' (ix2 r' k) = x (ix2 r k)) :
    layer a' x' W1 W2 b (ix2 r' q) = layer a x W1 W2 b (ix2 r q) := by
  rw [layer_ix2, layer_ix2]
  unfold preAct
  simp only [ha, hx]

/-- Row locality at arbitrary indices: the layer of `(a', x')` at `j` is the layer of `(a, x)` at `i` when the two
    indices have the same column and row `j 0` of `a'`, `x'` is row `i 0` of `a`, `x`. -/
theorem layer_rows_at {R R' : ℕ} (a x : (Rows R).Idx → EReal) (a' x' : (Rows R').Idx → EReal)
    (W1 W2 : Weights.Idx → EReal) (b : BiasRow.Idx → EReal) (i : (Rows R).Idx) (j : (Rows R').Idx)
    (hq : (j 1).val = (i 1).val)
    (ha : ∀ k : Fin 256, a' (ix2 (j 0) k) = a (ix2 (i 0) k)) (hx : ∀ k : Fin 256, x' (ix2 (j 0) k) = x (ix2 (i 0) k)) :
    layer a' x' W1 W2 b j = layer a x W1 W2 b i := by
  show leaky (preAct a' x' W1 W2 b (j 0) (j 1)) = leaky (preAct a x W1 W2 b (i 0) (i 1))
  rw [show (j 1 : Fin 256) = i 1 from Fin.ext hq]
  unfold preAct
  simp only [ha, hx]

end Cert.GraphLayer

end
-- ==== Proof.KernelTile.lean ====
/-
  What the kernel's body stores, read at an index: the layer of the tiles it loaded.

  At one grid point the body loads a tile of 1000 rows of the aggregated features `a` and of the features `x`, the
  two whole weight matrices and the bias row, and stores one value: it forms `a + x` and `a · x`, narrows both and
  the weights to bfloat16 (on the extended reals a change of format is the identity), multiplies each through its
  weight matrix into a zero accumulator (the accumulator contributes `0 + `, so each product is the plain sum over
  the contracted index `k`), adds the two products and the bias row repeated over the 1000 rows, and selects
  between the sum and the constant times the sum by the comparison with zero. Entry `(p, q)` of that value is the
  layer of the five loaded arrays at `(p, q)`.
-/
import proofs.«142917_j1683627180108_1_alg».proof.Proof.Gen.KernelIdeal.Skeleton
import proofs.«142917_j1683627180108_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.GraphLayer
open Idealize.ShloMosaic Idealize.ShloMosaic.ValueIdx

/-- The dimension numbers of the body's two matrix products: rows × contraction times contraction × columns. -/
abbrev tileDot : DotDims S1000x256 S256x256 S1000x256 := dot_S1000x256_S256x256_S1000x256_1_0_0_1_n_n

/-! ## The operand indices of a product's entry: `(row, k)` on the left, `(k, column)` on the right -/

theorem lhs_row (i : S1000x256.Idx) (c : tileDot.contr.Idx) : (tileDot.lhsIdx i c 0).val = (i 0).val := by
  unfold DotDims.lhsIdx
  rw [dif_neg (show ¬(0 : Fin S1000x256.rank) ∈ tileDot.lhsBatch by decide),
    dif_pos (show (0 : Fin S1000x256.rank) ∈ tileDot.lhsNonContracting by decide)]
  rfl

theorem lhs_col (i : S1000x256.Idx) (c : tileDot.contr.Idx) : (tileDot.lhsIdx i c 1).val = (c ⟨0, by decide⟩).val :=
  tileDot.lhsIdx_val_of_single rfl i c

theorem rhs_row (i : S1000x256.Idx) (c : tileDot.contr.Idx) : (tileDot.rhsIdx i c 0).val = (c ⟨0, by decide⟩).val :=
  tileDot.rhsIdx_val_of_single rfl i c

theorem rhs_col (i : S1000x256.Idx) (c : tileDot.contr.Idx) : (tileDot.rhsIdx i c 1).val = (i 1).val := by
  unfold DotDims.rhsIdx
  rw [dif_neg (show ¬(1 : Fin S256x256.rank) ∈ tileDot.rhsBatch by decide),
    dif_pos (show (1 : Fin S256x256.rank) ∈ tileDot.rhsNonContracting by decide)]
  rfl

/-- A matrix product of the body into the zero accumulator, at `(p, q)`: the sum over `k` of the left operand at
    `(p, k)` times the right operand at `(k, q)`. -/
theorem product_apply {φ₁ φ₂ : FTy} (L : FVec Ideal S1000x256 φ₁) (M : FVec Ideal S256x256 φ₂) (p : Fin 1000) (q : Fin 256) :
    matmul tileDot none L M (constant (F := Ideal) S1000x256 .f32 0x00000000#32) (ix2 p q)
      = ∑ k : Fin 256, L (ix2 p k) * M (ix2 k q) := by
  simp only [matmul]
  rw [Ideal.matmul_constant_zero_apply, ← Equiv.sum_comp (contrEquiv1 tileDot 256 rfl rfl).symm]
  refine Finset.sum_congr rfl fun k _ => ?_
  have hk := contrEquiv1_symm_val tileDot 256 rfl rfl k
  have el : tileDot.lhsIdx (ix2 p q) ((contrEquiv1 tileDot 256 rfl rfl).symm k) = ix2 p k := funext fun a => Fin.ext (by
    match a with
    | ⟨0, _⟩ => exact lhs_row _ _
    | ⟨1, _⟩ => exact (lhs_col _ _).trans hk)
  have er : tileDot.rhsIdx (ix2 p q) ((contrEquiv1 tileDot 256 rfl rfl).symm k) = ix2 k q := funext fun a => Fin.ext (by
    match a with
    | ⟨0, _⟩ => exact (rhs_row _ _).trans hk
    | ⟨1, _⟩ => exact rhs_col _ _)
  rw [el, er]

/-- THE STORED VALUE IS THE LAYER OF THE LOADED TILES: the body's one payload, as a function of its five loads, is
    `layer` of them (1000 rows). -/
theorem payload_eq_layer (v0 v2 : Vec Ideal S1000x256 .f32) (v7 v9 : Vec Ideal S256x256 .f32) (v14 : Vec Ideal S1x256 .f32) :
    k0_pay1 (F := Ideal) v0 v2 v7 v9 v14 = layer (R := 1000) v0 v2 v7 v9 v14 := by
  funext j
  obtain ⟨p, q, rfl⟩ : ∃ (p : Fin 1000) (q : Fin 256), j = ix2 p q := ⟨j 0, j 1, eq_ix2 j⟩
  rw [layer_ix2]
  unfold k0_pay1 leaky preAct
  simp only [select_apply, cmpf_apply, mulf_apply, addf_apply, broadcast_apply, product_apply,
    broadcastTo_1b_ab_apply, truncf_apply, shapeCast_self]
  rfl

end Cert.KernelIdeal.Tile

end
-- ==== Proof.KernelArray.lean ====
/-
  From the fifty tiles to the whole array: after the run the kernel's result array is the layer of the aggregated
  features and the arguments.

  The grid has fifty points. At point `t` the pipeline hands the body rows `1000·t … 1000·t + 999` of the aggregated
  features (the array the host stage before the region wrote) and of the features, the two whole weight matrices
  and the bias row, and writes the body's result back as rows `1000·t … 1000·t + 999` of the result array. The body's
  result is the layer of what it was handed (the tile lemma), and a tile of rows of the layer is the layer of that
  tile of rows (row locality): so what point `t` writes back is block `t` of ONE array, the layer of the whole
  inputs. Every row `r` lies in the block of point `r / 1000`, so the blocks cover the array, and the array ends as
  that one function.

  The aggregated features are what the region finds in the array its first window stages: the host operations'
  composed term of the arguments (gather, scale, scatter-add), which is named here once and never opened.
-/
import proofs.«142917_j1683627180108_1_alg».proof.Proof.Gen.KernelIdeal.Value
import proofs.«142917_j1683627180108_1_alg».proof.Proof.KernelTile
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

/-! ## The aggregation stage, named -/

/-- The aggregated features as the host stage before the region computes them from the features `x0`, the edges'
    source and destination nodes `x1`, `x2` and the edge weights `x3`: the source rows gathered (a negative index
    wrapped by 50000 first), each scaled by its edge's weight, and summed into the destination rows of a zero array. -/
def aggregated {F : FTy → Type} [FloatOps F] (x0 : (⟨S50000x256, .f32⟩ : BufTy).Contents (Elt F))
    (x1 x2 : (⟨S800000, .i32⟩ : BufTy).Contents (Elt F)) (x3 : (⟨S800000, .f32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 x2)
    (mulf
      (Host.gather gather_S50000x256_S800000x1_S800000x256_1_0_n_n_0_1_1256 x0
        (broadcastInDim S800000x1 ![0] bcast_S800000_S800000x1_0
          (select (cmpi .slt x1 (broadcastInDim S800000 ![] bcast_S_S800000 (constantI S_ 32 0#32)))
            (addi x1 (broadcastInDim S800000 ![] bcast_S_S800000 (constantI S_ 32 50000#32))) x1)))
      (broadcastInDim S800000x256 ![0, 1] bcast_S800000x1_S800000x256_0_1
        (broadcastInDim S800000x1 ![0] bcast_S800000_S800000x1_0 x3)))

variable (m : (ℓ : Loc nD τ sig) → Buf (Elt Ideal) ℓ) (ρ : Dev nD → PrngReg)

/-- The array the first window stages holds, when the region is entered, the aggregated features of the arguments. -/
theorem entry_aggregated (c : Dev nD) :
    (V m c main_v12 : S50000x256.Idx → EReal)
      = aggregated (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results
  rfl

/-! ## The index maps, decided over the fifty points -/

theorem zeroOffsets : (![0, 0] : Fin 2 → Nat) = fun _ => 0 := funext fun a => by fin_cases a <;> rfl

/-- The two row-tiled inputs and the output are at block `(t, 0)` at point `t`; the weights and the bias are always
    at block `(0, 0)`. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What the pipeline hands the body at a point, window by window

Each window's array is written as the pipeline names it (the window's own array reference), so that the contents the
region finds are never respelt: they are identified with the aggregated features and the arguments once, at the end. -/

/-- Row `p` of the aggregated-features tile at point `t` is row `1000·t + p` of the array the first window stages. -/
theorem tile_aggregated (c : Dev nD) (t : Fin cfg0.N) (p : Fin 1000) (k : Fin 256) (r : Fin 50000)
    (hr : r.val = t.val * 1000 + p.val) :
    (iblk m c 0 t : Vec Ideal S1000x256 .f32) (ix2 p k) = ((V m c (Pipeline.arrRef spec0 0)) : S50000x256.Idx → EReal) (ix2 r k) := by
  have e := blockIndex t
  unfold iblk
  rw [View.read_apply, cast_eq]
  refine congrArg (V m c (Pipeline.arrRef spec0 0)) (funext fun a => Fin.ext ?_)
  match a with
  | ⟨0, _⟩ => show win0_0.index t (0 : Fin 2) * 1000 + 1 * p.val = r.val; omega
  | ⟨1, _⟩ => show win0_0.index t (1 : Fin 2) * 256 + 1 * k.val = k.val; omega

/-- Row `p` of the features tile at point `t` is row `1000·t + p` of the features. -/
theorem tile_features (c : Dev nD) (t : Fin cfg0.N) (p : Fin 1000) (k : Fin 256) (r : Fin 50000)
    (hr : r.val = t.val * 1000 + p.val) :
    (iblk m c 1 t : Vec Ideal S1000x256 .f32) (ix2 p k) = ((V m c (Pipeline.arrRef spec0 1)) : S50000x256.Idx → EReal) (ix2 r k) := by
  have e := blockIndex t
  unfold iblk
  rw [View.read_apply, cast_eq]
  refine congrArg (V m c (Pipeline.arrRef spec0 1)) (funext fun a => Fin.ext ?_)
  match a with
  | ⟨0, _⟩ => show win0_1.index t (0 : Fin 2) * 1000 + 1 * p.val = r.val; omega
  | ⟨1, _⟩ => show win0_1.index t (1 : Fin 2) * 256 + 1 * k.val = k.val; omega

/-- The first weight matrix is handed over whole at every point. -/
theorem whole_W1 (c : Dev nD) (t : Fin cfg0.N) :
    (iblk m c 2 t : Vec Ideal S256x256 .f32) = ((V m c (Pipeline.arrRef spec0 2)) : S256x256.Idx → EReal) := by
  have e := blockIndex t
  refine funext fun (y : S256x256.Idx) => ?_
  unfold iblk
  rw [View.read_apply, cast_eq]
  refine congrArg (V m c (Pipeline.arrRef spec0 2)) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- So is the second. -/
theorem whole_W2 (c : Dev nD) (t : Fin cfg0.N) :
    (iblk m c 3 t : Vec Ideal S256x256 .f32) = ((V m c (Pipeline.arrRef spec0 3)) : S256x256.Idx → EReal) := by
  have e := blockIndex t
  refine funext fun (y : S256x256.Idx) => ?_
  unfold iblk
  rw [View.read_apply, cast_eq]
  refine congrArg (V m c (Pipeline.arrRef spec0 3)) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- And the bias row. -/
theorem whole_bias (c : Dev nD) (t : Fin cfg0.N) :
    (iblk m c 4 t : Vec Ideal S1x256 .f32) = ((V m c (Pipeline.arrRef spec0 4)) : S1x256.Idx → EReal) := by
  have e := blockIndex t
  refine funext fun (y : S1x256.Idx) => ?_
  unfold iblk
  rw [View.read_apply, cast_eq]
  refine congrArg (V m c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## What one point writes back -/

/-- WHAT POINT `t` WRITES BACK is block `t` of the layer of the five arrays as the region finds them. -/
theorem flushed_eq (c : Dev nD) (t : Fin cfg0.N) :
    (dats m 0 c).flushed 5 t = ((cfg0.win 5).blk t).view.read (Elt Ideal)
      (layer (R := 50000) (V m c (Pipeline.arrRef spec0 0)) (V m c (Pipeline.arrRef spec0 1)) (V m c (Pipeline.arrRef spec0 2)) (V m c (Pipeline.arrRef spec0 3)) (V m c (Pipeline.arrRef spec0 4))) := by
  rw [Value.flushed5]
  unfold out0_5
  rw [View.canon_unit_zero zeroOffsets]
  simp only [View.ld_unit_zero (S := S1000x256) zeroOffsets, View.ld_unit_zero (S := S256x256) zeroOffsets,
    View.ld_unit_zero (S := S1x256) zeroOffsets]
  rw [Tile.payload_eq_layer, whole_W1 m c t, whole_W2 m c t, whole_bias m c t]
  have e := blockIndex t
  refine funext fun (j : S1000x256.Idx) => ?_
  rw [View.read_apply, cast_eq]
  show layer (R := 1000) (iblk m c 0 t) (iblk m c 1 t) (V m c (Pipeline.arrRef spec0 2)) (V m c (Pipeline.arrRef spec0 3)) (V m c (Pipeline.arrRef spec0 4)) j = _
  have hj0 : (j 0).val < 1000 := (j 0).isLt
  have hj1 : (j 1).val < 256 := (j 1).isLt
  refine layer_rows_at _ _ _ _ _ _ _ _ j ?_ (fun k => ?_) (fun k => ?_)
  · show (j 1).val = win0_5.index t (1 : Fin 2) * 256 + 1 * (j 1).val
    omega
  · refine tile_aggregated m c t (j 0) k _ ?_
    show win0_5.index t (0 : Fin 2) * 1000 + 1 * (j 0).val = t.val * 1000 + (j 0).val
    omega
  · refine tile_features m c t (j 0) k _ ?_
    show win0_5.index t (0 : Fin 2) * 1000 + 1 * (j 0).val = t.val * 1000 + (j 0).val
    omega

/-! ## The blocks cover the array -/

/-- An index of the result array is in point `t`'s block iff each coordinate is in the block's range on its axis. -/
theorem mem_block (t : Fin cfg0.N) (i : S50000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v13).slice (win0_5.rect t)).set ↔ _
  rw [View.set_slice_whole, Rect.mem_set_unit]
  exact Iff.rfl

/-- Row `r` lies in the block of point `r / 1000`: every index is written back by some point. -/
theorem covered (i : S50000x256.Idx) :
    ∃ t : Fin cfg0.N, (cfg0.win 5).flush t = true ∧ i ∈ ((cfg0.win 5).blk t).view.set := by
  have hN : grid0.N = 50 := N_0
  have hi0 : (i 0).val < 50000 := (i 0).isLt
  have hi1 : (i 1).val < 256 := (i 1).isLt
  have ht : (i 0).val / 1000 < cfg0.N := by show (i 0).val / 1000 < grid0.N; omega
  obtain ⟨-, -, -, -, -, -, -, -, -, -, e50, e51⟩ := blockIndex ⟨(i 0).val / 1000, ht⟩
  refine ⟨⟨(i 0).val / 1000, ht⟩, flush0_5 _, ?_⟩
  rw [mem_block]
  intro a
  match a with
  | ⟨0, _⟩ =>
    show win0_5.index ⟨(i 0).val / 1000, ht⟩ (0 : Fin 2) * 1000 ≤ (i 0).val
      ∧ (i 0).val < win0_5.index ⟨(i 0).val / 1000, ht⟩ (0 : Fin 2) * 1000 + 1000
    rw [e50]; show (i 0).val / 1000 * 1000 ≤ (i 0).val ∧ (i 0).val < (i 0).val / 1000 * 1000 + 1000; omega
  | ⟨1, _⟩ =>
    show win0_5.index ⟨(i 0).val / 1000, ht⟩ (1 : Fin 2) * 256 ≤ (i 1).val
      ∧ (i 1).val < win0_5.index ⟨(i 0).val / 1000, ht⟩ (1 : Fin 2) * 256 + 256
    rw [e51]; omega

/-! ## The whole array, and the run -/

/-- THE RESULT ARRAY after the run: the layer of the aggregated features of the arguments and the arguments. -/
theorem final (c : Dev nD) :
    (dats m 0 c).arrAt 5 cfg0.N
      = layer (R := 50000) (aggregated (F := Ideal) (m ((c : Thread nD τ).loc main_arg0)) (m ((c : Thread nD τ).loc main_arg1)) (m ((c : Thread nD τ).loc main_arg2)) (m ((c : Thread nD τ).loc main_arg3)))
          (m ((c : Thread nD τ).loc main_arg0)) (m ((c : Thread nD τ).loc main_arg4)) (m ((c : Thread nD τ).loc main_arg5)) (m ((c : Thread nD τ).loc main_arg6)) := by
  have h0 : ((V m c (Pipeline.arrRef spec0 0)) : S50000x256.Idx → EReal)
      = aggregated (F := Ideal) (m ((c : Thread nD τ).loc main_arg0)) (m ((c : Thread nD τ).loc main_arg1)) (m ((c : Thread nD τ).loc main_arg2)) (m ((c : Thread nD τ).loc main_arg3)) := entry_aggregated m c
  have h1 : ((V m c (Pipeline.arrRef spec0 1)) : S50000x256.Idx → EReal) = (m ((c : Thread nD τ).loc main_arg0)) := V_main_arg0 m c
  have h2 : ((V m c (Pipeline.arrRef spec0 2)) : S256x256.Idx → EReal) = (m ((c : Thread nD τ).loc main_arg4)) := V_main_arg4 m c
  have h3 : ((V m c (Pipeline.arrRef spec0 3)) : S256x256.Idx → EReal) = (m ((c : Thread nD τ).loc main_arg5)) := V_main_arg5 m c
  have h4 : ((V m c (Pipeline.arrRef spec0 4)) : S1x256.Idx → EReal) = (m ((c : Thread nD τ).loc main_arg6)) := V_main_arg6 m c
  rw [(dats m 0 c).arrAt_eq_of_cover 5 _ (fun t _ => flushed_eq m c t) covered, h0, h1, h2, h3, h4]

/-- Every weakly fair execution of the kernel's program terminates with the result array at the layer of the
    aggregated features and the arguments, the arguments unchanged. -/
theorem run : θ_run defs (onTc (τ := τ) (main (F := Ideal))) ⟨m, fun _ => 0, ρ⟩ fun r => ∀ c : Dev nD,
      r.2.mem ((c : Thread nD τ).loc main_v13)
        = layer (R := 50000) (aggregated (F := Ideal) (m ((c : Thread nD τ).loc main_arg0)) (m ((c : Thread nD τ).loc main_arg1)) (m ((c : Thread nD τ).loc main_arg2)) (m ((c : Thread nD τ).loc main_arg3)))
            (m ((c : Thread nD τ).loc main_arg0)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.ReferenceLayer.lean ====
/-
  The reference's result is the layer of its aggregated features and the arguments.

  After the shared aggregation stage (gather the source rows, scale by the edge weights, sum into the
  destination rows — its result is kept as ONE unopened array, the stage `val_main_v12`), the reference adds and
  multiplies that array with the features, multiplies each through its weight matrix (on the extended reals a
  `dot_general` with one contracted axis is the sum over `k`), adds the two and the bias row repeated over all
  rows, and selects between the sum and the constant times the sum by the comparison with zero. Read at `(r, q)`
  one operation at a time, that is `layer` at `(r, q)` with 50000 rows.
-/
import proofs.«142917_j1683627180108_1_alg».proof.Proof.Gen.ReferenceIdeal.Read
import proofs.«142917_j1683627180108_1_alg».proof.Proof.Layer
import Idealize.ShloMosaic.Lib.ValueIdx

noncomputable section

open scoped BigOperators

namespace Cert.ReferenceIdeal.RefLayer

open Cert.ReferenceIdeal Cert.ReferenceIdeal.Read Cert.GraphLayer
open Idealize.ShloMosaic Idealize.ShloMosaic.ValueIdx

/-! ## The operand indices the two products and the bias broadcast read, by coordinates -/

theorem left15 (r : Fin 50000) (q k : Fin 256) : lidx_main_v15 (ix2 r q) k = ix2 r k :=
  funext fun a => by match a with | ⟨0, _⟩ => rfl | ⟨1, _⟩ => rfl
theorem right15 (r : Fin 50000) (q k : Fin 256) : ridx_main_v15 (ix2 r q) k = ix2 k q :=
  funext fun a => by match a with | ⟨0, _⟩ => rfl | ⟨1, _⟩ => rfl
theorem left16 (r : Fin 50000) (q k : Fin 256) : lidx_main_v16 (ix2 r q) k = ix2 r k :=
  funext fun a => by match a with | ⟨0, _⟩ => rfl | ⟨1, _⟩ => rfl
theorem right16 (r : Fin 50000) (q k : Fin 256) : ridx_main_v16 (ix2 r q) k = ix2 k q :=
  funext fun a => by match a with | ⟨0, _⟩ => rfl | ⟨1, _⟩ => rfl
theorem biasIdx (r : Fin 50000) (q : Fin 256) : idx_main_v18 (ix2 r q) = ix2 (0 : Fin 1) q :=
  funext fun a => by match a with | ⟨0, _⟩ => rfl | ⟨1, _⟩ => rfl

/-! ## The two products at `(r, q)`, as sums over the contracted index -/

/-- The first product: the sum of the aggregated and the own features, through the first weight matrix. -/
theorem sumProduct (x0 : (⟨S50000x256, .f32⟩ : BufTy).Contents (Elt Ideal))
    (x1 x2 : (⟨S800000, .i32⟩ : BufTy).Contents (Elt Ideal)) (x3 : (⟨S800000, .f32⟩ : BufTy).Contents (Elt Ideal))
    (x4 : (⟨S256x256, .f32⟩ : BufTy).Contents (Elt Ideal)) (r : Fin 50000) (q : Fin 256) :
    val_main_v15 (F := Ideal) x0 x1 x2 x3 x4 (ix2 r q)
      = ∑ k : Fin 256, (val_main_v12 (F := Ideal) x0 x1 x2 x3 (ix2 r k) + x0 (ix2 r k)) * x4 (ix2 k q) := by
  rw [val_main_v15_apply]
  refine Finset.sum_congr rfl fun k _ => ?_
  rw [left15 r q k, right15 r q k, val_main_v13_apply]
  generalize val_main_v12 (F := Ideal) x0 x1 x2 x3 = A
  rfl

/-- The second product: the product of the aggregated and the own features, through the second weight matrix. -/
theorem prodProduct (x0 : (⟨S50000x256, .f32⟩ : BufTy).Contents (Elt Ideal))
    (x1 x2 : (⟨S800000, .i32⟩ : BufTy).Contents (Elt Ideal)) (x3 : (⟨S800000, .f32⟩ : BufTy).Contents (Elt Ideal))
    (x5 : (⟨S256x256, .f32⟩ : BufTy).Contents (Elt Ideal)) (r : Fin 50000) (q : Fin 256) :
    val_main_v16 (F := Ideal) x0 x1 x2 x3 x5 (ix2 r q)
      = ∑ k : Fin 256, (val_main_v12 (F := Ideal) x0 x1 x2 x3 (ix2 r k) * x0 (ix2 r k)) * x5 (ix2 k q) := by
  rw [val_main_v16_apply]
  refine Finset.sum_congr rfl fun k _ => ?_
  rw [left16 r q k, right16 r q k, val_main_v14_apply]
  generalize val_main_v12 (F := Ideal) x0 x1 x2 x3 = A
  rfl

/-- THE REFERENCE'S RESULT IS THE LAYER of its aggregated features (the scatter stage, unopened), the features, the
    two weight matrices and the bias. -/
theorem result_eq_layer (x0 : (⟨S50000x256, .f32⟩ : BufTy).Contents (Elt Ideal))
    (x1 x2 : (⟨S800000, .i32⟩ : BufTy).Contents (Elt Ideal)) (x3 : (⟨S800000, .f32⟩ : BufTy).Contents (Elt Ideal))
    (x4 x5 : (⟨S256x256, .f32⟩ : BufTy).Contents (Elt Ideal)) (x6 : (⟨S1x256, .f32⟩ : BufTy).Contents (Elt Ideal)) :
    val_main_v24 (F := Ideal) x0 x1 x2 x3 x4 x5 x6
      = layer (R := 50000) (val_main_v12 (F := Ideal) x0 x1 x2 x3) x0 x4 x5 x6 := by
  funext i
  obtain ⟨r, q, rfl⟩ : ∃ (r : Fin 50000) (q : Fin 256), i = ix2 r q := ⟨i 0, i 1, eq_ix2 i⟩
  rw [layer_ix2, val_main_v24_apply, val_main_v21_apply, val_main_v23_apply, val_main_v19_apply, val_main_v17_apply,
    sumProduct, prodProduct, val_main_v18_apply, biasIdx r q, val_main_v20_apply, val_main_v22_apply,
    val_main_cst_1_apply, val_main_cst_2_apply]
  generalize val_main_v12 (F := Ideal) x0 x1 x2 x3 = A
  rfl

end Cert.ReferenceIdeal.RefLayer

end
-- ==== Proof.lean ====
/-
  A graph layer on 50000 nodes with 256 features and 800000 weighted edges: a Pallas kernel that tiles the node
  axis into fifty blocks of 1000 rows, against the plain jnp program. The claim: read on the extended reals, with
  every float operation exact, the two programs return the same array from the same arguments.

  Both programs begin with the same aggregation stage on the host: the source node's feature row of every edge is
  gathered, scaled by the edge's weight, and summed into the destination node's row. The two stages are the same
  sixteen operations on the same arguments; their result `a` is carried through the proof as one unopened array
  (`aggregated_eq` says the two programs' spellings of it are one term).

  From `a`, the features `x`, the weights `W1`, `W2` and the bias `b` both programs compute the layer (Proof/Layer.lean)

      out r q = leaky ( Σₖ (a r k + x r k) · W1 k q + Σₖ (a r k · x r k) · W2 k q + b 0 q ).

  The reference does so on whole arrays (Proof/ReferenceLayer.lean, over its generated run read one operation at a
  time). The kernel does so tile by tile: at a grid point its body computes the layer of the 1000 rows it was
  handed (Proof/KernelTile.lean; the narrowing to bfloat16 before each matrix product is the identity on the
  extended reals, and a product into a zero accumulator is the plain sum), and because row `r` of the layer reads
  only row `r` of `a` and `x`, the fifty tiles written back are the fifty row blocks of the layer of the whole
  arrays, which cover the result (Proof/KernelArray.lean, over the generated blockwise run).

  No law of arithmetic beyond `0 + s = s` is used: the two sides are the same sums in the same order, so the
  finiteness of the inputs is never opened. The three frames are the generated ones (the reference's is its
  generated run with the result dropped), and the idealization rewrote no operation, so `preserves` is trivial.
-/
import proofs.«142917_j1683627180108_1_alg».proof.Defs
import proofs.«142917_j1683627180108_1_alg».proof.Proof.Gen.Kernel
import proofs.«142917_j1683627180108_1_alg».proof.Proof.Gen.Kernel.Skeleton
import proofs.«142917_j1683627180108_1_alg».proof.Proof.Gen.Kernel.Launch
import proofs.«142917_j1683627180108_1_alg».proof.Proof.Gen.Kernel.Points
import proofs.«142917_j1683627180108_1_alg».proof.Proof.Gen.Kernel.Frame
import proofs.«142917_j1683627180108_1_alg».proof.Proof.Gen.KernelIdeal
import proofs.«142917_j1683627180108_1_alg».proof.Proof.Gen.KernelIdeal.Skeleton
import proofs.«142917_j1683627180108_1_alg».proof.Proof.Gen.KernelIdeal.Launch
import proofs.«142917_j1683627180108_1_alg».proof.Proof.Gen.KernelIdeal.Points
import proofs.«142917_j1683627180108_1_alg».proof.Proof.Gen.KernelIdeal.Frame
import proofs.«142917_j1683627180108_1_alg».proof.Proof.Gen.ReferenceIdeal
import proofs.«142917_j1683627180108_1_alg».proof.Proof.Gen.Pre_finite_inputs
import proofs.«142917_j1683627180108_1_alg».proof.Proof.Gen.KernelIdeal.Value
import proofs.«142917_j1683627180108_1_alg».proof.Proof.Gen.ReferenceIdeal.Run
import proofs.«142917_j1683627180108_1_alg».proof.Proof.Gen.ReferenceIdeal.Read
import proofs.«142917_j1683627180108_1_alg».proof.Proof.KernelArray
import proofs.«142917_j1683627180108_1_alg».proof.Proof.ReferenceLayer
import Idealize.ShloMosaic.Adequacy
import Idealize.ShloMosaic.Init

noncomputable section

namespace Cert.Proof

open Idealize.ShloMosaic Idealize.ShloMosaic.TcCoe Idealize.SL.Sem

/-- THE TWO AGGREGATION STAGES ARE ONE FUNCTION of the features, the edges' end nodes and the edge weights: the
    kernel's host stage and the reference's scatter stage apply the same operations, with the same dimension
    numbers, to the same operands. Neither side is evaluated: the stages are opened down to their operations and
    the two terms are compared operation by operation. -/
theorem aggregated_eq (x0 : (⟨Cert.KernelIdeal.S50000x256, .f32⟩ : BufTy).Contents (Elt Ideal))
    (x1 x2 : (⟨Cert.KernelIdeal.S800000, .i32⟩ : BufTy).Contents (Elt Ideal))
    (x3 : (⟨Cert.KernelIdeal.S800000, .f32⟩ : BufTy).Contents (Elt Ideal)) :
    Cert.KernelIdeal.Whole.aggregated (F := Ideal) x0 x1 x2 x3
      = Cert.ReferenceIdeal.Read.val_main_v12 (F := Ideal) x0 x1 x2 x3 := by
  unfold Cert.KernelIdeal.Whole.aggregated Cert.ReferenceIdeal.Read.val_main_v12 Cert.ReferenceIdeal.Read.val_main_v10
    Cert.ReferenceIdeal.Read.val_main_v11 Cert.ReferenceIdeal.Read.val_main_v9 Cert.ReferenceIdeal.Read.val_main_v6
    Cert.ReferenceIdeal.Read.val_main_v8 Cert.ReferenceIdeal.Read.val_main_v7 Cert.ReferenceIdeal.Read.val_main_v5
    Cert.ReferenceIdeal.Read.val_main_v4 Cert.ReferenceIdeal.Read.val_main_v1 Cert.ReferenceIdeal.Read.val_main_v3
    Cert.ReferenceIdeal.Read.val_main_v0 Cert.ReferenceIdeal.Read.val_main_v2 Cert.ReferenceIdeal.Read.val_main_c
    Cert.ReferenceIdeal.Read.val_main_c_0 Cert.ReferenceIdeal.Read.val_main_cst
  rfl

/-- The kernel as printed runs, and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the layer of the aggregated features and the arguments
    (the blockwise run, tile by tile), and so does the reference's (its run, operation by operation), from
    arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefLayer.result_eq_layer,
    (hagree c).1, (hagree c).2.1, (hagree c).2.2.1, (hagree c).2.2.2.1, (hagree c).2.2.2.2.1,
    (hagree c).2.2.2.2.2.1, (hagree c).2.2.2.2.2.2, ← aggregated_eq]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
